-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x1600000 32) (main_arg2 : FVec F S128x128 .f32) (main_arg3 : FVec F S128 .f32) (main_arg4 : FVec F S128x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S5000x128 : Shape := ⟨2, ![5000, 128]⟩

abbrev nBuf : Space → Nat
  | .hbm => 26
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S_, .f32⟩
  | .hbm, ⟨20, _⟩ => ⟨S50000x128, .f32⟩
  | .hbm, ⟨21, _⟩ => ⟨S1600000x1, .i32⟩
  | .hbm, ⟨22, _⟩ => ⟨S50000x128, .f32⟩
  | .hbm, ⟨23, _⟩ => ⟨S1x128, .f32⟩
  | .hbm, ⟨24, _⟩ => ⟨S1x128, .f32⟩
  | .hbm, ⟨25, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 38
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S_, .f32⟩
  | .hbm, ⟨20, _⟩ => ⟨S50000x128, .f32⟩
  | .hbm, ⟨21, _⟩ => ⟨S1600000x1, .i32⟩
  | .hbm, ⟨22, _⟩ => ⟨S50000x128, .f32⟩
  | .hbm, ⟨23, _⟩ => ⟨S_, .f32⟩
  | .hbm, ⟨24, _⟩ => ⟨S50000x128, .f32⟩
  | .hbm, ⟨25, _⟩ => ⟨S50000x128, .f32⟩
  | .hbm, ⟨26, _⟩ => ⟨S50000x128, .f32⟩
  | .hbm, ⟨27, _⟩ => ⟨S50000x128, .f32⟩
  | .hbm, ⟨28, _⟩ => ⟨S1x128, .f32⟩
  | .hbm, ⟨29, _⟩ => ⟨S50000x128, .f32⟩
  | .hbm, ⟨30, _⟩ => ⟨S50000x128, .f32⟩
  | .hbm, ⟨31, _⟩ => ⟨S_, .f32⟩
  | .hbm, ⟨32, _⟩ => ⟨S50000x128, .f32⟩
  | .hbm, ⟨33, _⟩ => ⟨S50000x128, .f32⟩
  | .hbm, ⟨34, _⟩ => ⟨S50000x128, .f32⟩
  | .hbm, ⟨35, _⟩ => ⟨S1x128, .f32⟩
  | .hbm, ⟨36, _⟩ => ⟨S50000x128, .f32⟩
  | .hbm, ⟨37, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_cst : Ref sig .tc := ⟨.hbm, 31, rfl⟩
abbrev main_call0_v0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x128_S50000x128_1_0_0_1_n_n_wf : DotDims.WF S50000x128 S128x128 S50000x128 [1] [0] [0] [1] [] []

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  A graph-isomorphism layer's node update followed by a two-layer perceptron, one output entry at a time,
  on the extended reals.

  For one node with feature row `xr` and aggregated neighbour row `ar` (128 features each) the combined row is
  `1 * xr + ar`; the hidden layer's entry `k` is `max (∑ q, (1 * xr q + ar q) * W1 (q, k) + b1 k) 0`; the output
  entry `c` is `∑ k, hidden k * W2 (k, c) + b2 c`. An entry of the result depends on ONE row of the features and
  of the aggregate, which is why a block of rows of the result is the same function of that block of rows.
  The constants `1` and `0` are kept as the float words the programs print: the same word stands on both sides
  and is never evaluated.
-/
import Idealize.ShloMosaic.PureOps.Ideal
import Idealize.ShloMosaic.Lib.ValueIdx

noncomputable section

namespace Cert.GinMlp

open Idealize.ShloMosaic Idealize.ShloMosaic.ValueIdx

/-- An `M × N` array of extended reals. -/
abbrev Mat (M N : Nat) : Type := (⟨2, ![M, N]⟩ : Shape).Idx → EReal

/-- Entry `k` of the hidden layer for one node: the rectified affine image of the combined row. -/
def hidden (xr ar : Fin 128 → EReal) (W1 : Mat 128 128) (b1 : Fin 128 → EReal) (k : Fin 128) : EReal :=
  max ((∑ q : Fin 128, (Ideal.ofBits .f32 0x3F800000#32 * xr q + ar q) * W1 (ix2 q k)) + b1 k)
    (Ideal.ofBits .f32 0x00000000#32)

/-- Entry `c` of the output for one node: the affine image of its hidden layer. -/
def outRow (xr ar : Fin 128 → EReal) (W1 : Mat 128 128) (b1 : Fin 128 → EReal) (W2 : Mat 128 128)
    (b2 : Fin 128 → EReal) (c : Fin 128) : EReal :=
  (∑ k : Fin 128, hidden xr ar W1 b1 k * W2 (ix2 k c)) + b2 c

/-- The whole update for `M` nodes: entry `(r, c)` is `outRow` of row `r` of the features and of the aggregate. -/
def mlp (M : Nat) (x agg : Mat M 128) (W1 : Mat 128 128) (b1 : Fin 128 → EReal) (W2 : Mat 128 128)
    (b2 : Fin 128 → EReal) : Mat M 128 :=
  fun j => outRow (fun q => x (ix2 (j 0) q)) (fun q => agg (ix2 (j 0) q)) W1 b1 W2 b2 (j 1)

/-- ROW LOCALITY: two updates, of any numbers of nodes, agree at a pair of indices whose feature rows and aggregate
    rows agree and whose columns are equal. -/
theorem mlp_rows {M M' : Nat} (x agg : Mat M 128) (x' agg' : Mat M' 128) (W1 : Mat 128 128) (b1 : Fin 128 → EReal)
    (W2 : Mat 128 128) (b2 : Fin 128 → EReal) (j : (⟨2, ![M, 128]⟩ : Shape).Idx) (j' : (⟨2, ![M', 128]⟩ : Shape).Idx)
    (hx : ∀ q : Fin 128, x (ix2 (j 0) q) = x' (ix2 (j' 0) q))
    (ha : ∀ q : Fin 128, agg (ix2 (j 0) q) = agg' (ix2 (j' 0) q)) (hc : j 1 = j' 1) :
    mlp M x agg W1 b1 W2 b2 j = mlp M' x' agg' W1 b1 W2 b2 j' := by
  unfold mlp
  rw [funext hx, funext ha, hc]

/-- The update as a function of its six arguments respects their equality. -/
theorem mlp_args {M : Nat} {x x' agg agg' : Mat M 128} {W1 W1' : Mat 128 128} {b1 b1' : Fin 128 → EReal}
    {W2 W2' : Mat 128 128} {b2 b2' : Fin 128 → EReal}
    (hx : x = x') (ha : agg = agg') (hW1 : W1 = W1') (hb1 : b1 = b1') (hW2 : W2 = W2') (hb2 : b2 = b2') :
    mlp M x agg W1 b1 W2 b2 = mlp M x' agg' W1' b1' W2' b2' := by
  subst hx ha hW1 hb1 hW2 hb2
  rfl

/-- The same, with the weights and biases allowed to be written differently on the two sides. -/
theorem mlp_congr {M M' : Nat} (x agg : Mat M 128) (x' agg' : Mat M' 128) (W1 W1' : Mat 128 128) (b1 b1' : Fin 128 → EReal)
    (W2 W2' : Mat 128 128) (b2 b2' : Fin 128 → EReal) (j : (⟨2, ![M, 128]⟩ : Shape).Idx) (j' : (⟨2, ![M', 128]⟩ : Shape).Idx)
    (hx : ∀ q : Fin 128, x (ix2 (j 0) q) = x' (ix2 (j' 0) q))
    (ha : ∀ q : Fin 128, agg (ix2 (j 0) q) = agg' (ix2 (j' 0) q))
    (hW1 : W1 = W1') (hb1 : b1 = b1') (hW2 : W2 = W2') (hb2 : b2 = b2') (hc : j 1 = j' 1) :
    mlp M x agg W1 b1 W2 b2 j = mlp M' x' agg' W1' b1' W2' b2' j' := by
  subst hW1 hb1 hW2 hb2
  exact mlp_rows x agg x' agg' W1 b1 W2 b2 j j' hx ha hc

end Cert.GinMlp

end
-- ==== Proof.LibPlainDot.lean ====
/-
  A matrix product with plain dimension numbers, read at an index on the extended reals.

  For an `M×K` by `K×N` contraction (left axis 1 against right axis 0, no batch axis) the element at `(r, c)` of
  a matrix-unit product into a zero accumulator, and of the host's `dot_general`, is the sum over `k : Fin K` of
  `l (r, k) * w (k, c)`: the contraction's one-axis index type is re-indexed by its single coordinate.
-/
import Idealize.ShloMosaic.PureOps.Ideal.Laws
import Idealize.ShloMosaic.Lib.ValueIdx

noncomputable section

namespace Cert.PlainDot

open Idealize.ShloMosaic Idealize.ShloMosaic.ValueIdx

/-- The contraction sum of a plain `M×K` by `K×N` product at output index `j`, over `Fin K`. -/
theorem contr_sum (M K N : Nat) (l : (⟨2, ![M, K]⟩ : Shape).Idx → EReal) (w : (⟨2, ![K, N]⟩ : Shape).Idx → EReal)
    (j : (⟨2, ![M, N]⟩ : Shape).Idx) :
    (∑ q : (DotDims.plain M K N).contr.Idx, l ((DotDims.plain M K N).lhsIdx j q) * w ((DotDims.plain M K N).rhsIdx j q))
      = ∑ k : Fin K, l (ix2 (j 0) k) * w (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  rw [el, er]
  rfl

/-- A matrix-unit product into the zero accumulator, at an index. -/
theorem matmul_zero_apply (M K N : Nat) {φ₁ φ₂ : FTy} (prec : Option ContractPrecision)
    (l : FVec Ideal (⟨2, ![M, K]⟩ : Shape) φ₁) (w : FVec Ideal (⟨2, ![K, N]⟩ : Shape) φ₂) (j : (⟨2, ![M, N]⟩ : Shape).Idx) :
    FloatOps.matmul (DotDims.plain M K N) prec l w (constant (⟨2, ![M, N]⟩ : Shape) .f32 0x00000000#32) j
      = ∑ k : Fin K, l (ix2 (j 0) k) * w (ix2 k (j 1)) :=
  (Ideal.matmul_constant_zero_apply (DotDims.plain M K N) prec l w j).trans (contr_sum M K N l w j)

/-- The host's `dot_general`, at an index. -/
theorem dotGeneral_apply (M K N : Nat) {φ₁ φ₂ : FTy} (prec : Option ContractPrecision) (sched : HostSchedule)
    (l : FVec Ideal (⟨2, ![M, K]⟩ : Shape) φ₁) (w : FVec Ideal (⟨2, ![K, N]⟩ : Shape) φ₂) (j : (⟨2, ![M, N]⟩ : Shape).Idx) :
    FloatOps.dotGeneral (DotDims.plain M K N) prec sched l w j
      = ∑ k : Fin K, l (ix2 (j 0) k) * w (ix2 k (j 1)) :=
  (Ideal.dotGeneral_apply (DotDims.plain M K N) prec sched l w j).trans (contr_sum M K N l w j)

end Cert.PlainDot

end
-- ==== Proof.RefValue.lean ====
/-
  The reference's result, read at an index on the extended reals: it is the update `Cert.GinMlp.mlp 50000` of the
  feature array, the aggregated-neighbour array the program computes before it, the weights and the bias vectors.

  The host's two products are sums over the contracted axis, a bias vector broadcast to a row and then down the
  rows is read at its column, the rectifier is the maximum against the broadcast zero, and the elementwise
  operations are the extended reals' own.
-/
import proofs.«126447_j34316788695392_2_alg».proof.Proof.Gen.ReferenceIdeal.Read
import proofs.«126447_j34316788695392_2_alg».proof.Proof.Spec
import proofs.«126447_j34316788695392_2_alg».proof.Proof.LibPlainDot

noncomputable section

namespace Cert.GinMlp.Ref

open Idealize.ShloMosaic Idealize.ShloMosaic.ValueIdx Cert.ReferenceIdeal Cert.ReferenceIdeal.Read

/-- The host's product of a 50000-row array with a weight matrix, at `(r, c)`. -/
theorem dot_apply (l : FVec Ideal S50000x128 .f32) (w : FVec Ideal S128x128 .f32) (r : Fin 50000) (c : Fin 128) :
    Host.dotGeneral dot_S50000x128_S128x128_S50000x128_1_0_0_1_n_n none l w (ix2 r c)
      = ∑ q : Fin 128, l (ix2 r q) * w (ix2 q c) :=
  Cert.PlainDot.dotGeneral_apply 50000 128 128 none .single l w (ix2 r c)

/-- The first bias, broadcast to a row and down the rows, at `(r, c)` is its entry `c`. -/
theorem bias1_apply (x3 : (⟨S128, .f32⟩ : BufTy).Contents (Elt Ideal)) (r : Fin 50000) (c : Fin 128) :
    val_main_v19 (F := Ideal) x3 (ix2 r c) = x3 (ix1 c) := by
  rw [val_main_v19_apply, val_main_v18_apply]
  exact congrArg x3 (funext fun a => match a with | ⟨0, _⟩ => rfl)

/-- The second bias, broadcast to a row and down the rows, at `(r, c)` is its entry `c`. -/
theorem bias2_apply (x5 : (⟨S128, .f32⟩ : BufTy).Contents (Elt Ideal)) (r : Fin 50000) (c : Fin 128) :
    val_main_v24 (F := Ideal) x5 (ix2 r c) = x5 (ix1 c) := by
  rw [val_main_v24_apply, val_main_v23_apply]
  exact congrArg x5 (funext fun a => match a with | ⟨0, _⟩ => rfl)

/-- THE REFERENCE'S RESULT at `(r, c)`: the output entry `c` of node `r`, its aggregate row taken from the
    scatter-add stage. -/
theorem ref_apply (x0 : (⟨S50000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (r : Fin 50000) (c : Fin 128) :
    val_main_v25 (F := Ideal) x0 x1 x2 x3 x4 x5 (ix2 r c)
      = outRow (fun q => x0 (ix2 r q)) (fun q => val_main_v13 (F := Ideal) x0 x1 (ix2 r q)) x2 (fun k => x3 (ix1 k)) x4
          (fun k => x5 (ix1 k)) c := by
  show val_main_v22 (F := Ideal) x0 x1 x2 x3 x4 (ix2 r c) + val_main_v24 (F := Ideal) x5 (ix2 r c) = _
  rw [bias2_apply]
  unfold val_main_v22
  rw [dot_apply]
  unfold outRow
  refine congrArg (· + x5 (ix1 c)) (Finset.sum_congr rfl fun k _ => congrArg (· * x4 (ix2 k c)) ?_)
  show max (val_main_v17 (F := Ideal) x0 x1 x2 (ix2 r k) + val_main_v19 (F := Ideal) x3 (ix2 r k))
      (val_main_call0_v0 (F := Ideal) (ix2 r k)) = _
  rw [bias1_apply]
  unfold val_main_v17
  rw [dot_apply]
  rfl

/-- The reference's result is the update of its 50000 nodes. -/
theorem ref_eq (x0 : (⟨S50000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    val_main_v25 (F := Ideal) x0 x1 x2 x3 x4 x5
      = mlp 50000 x0 (val_main_v13 (F := Ideal) x0 x1) x2 (fun k => x3 (ix1 k)) x4 (fun k => x5 (ix1 k)) := by
  funext j
  obtain ⟨r, c, rfl⟩ : ∃ (r : Fin 50000) (c : Fin 128), j = ix2 r c := ⟨j 0, j 1, eq_ix2 j⟩
  exact ref_apply x0 x1 x2 x3 x4 x5 r c

end Cert.GinMlp.Ref

end
-- ==== Proof.KernelPayload.lean ====
/-
  The kernel body's stored value, read at an index on the extended reals: for a block of 5000 nodes it is the
  update `Cert.GinMlp.mlp 5000` of the loaded feature block, aggregate block, weights and bias rows.

  The format changes vanish, the two matrix-unit products into zero accumulators are sums over the contracted
  axis, a bias row broadcast down the block is read at its column, and the elementwise operations are the
  extended reals' own.
-/
import proofs.«126447_j34316788695392_2_alg».proof.Proof.Gen.KernelIdeal.Skeleton
import proofs.«126447_j34316788695392_2_alg».proof.Proof.Spec
import proofs.«126447_j34316788695392_2_alg».proof.Proof.LibPlainDot
import Idealize.ShloMosaic.Lib.Pipeline.Value

noncomputable section

namespace Cert.GinMlp.Body

open Idealize.ShloMosaic Idealize.ShloMosaic.ValueIdx Cert.KernelIdeal Cert.KernelIdeal.Gen

/-- A bias row, cast to its own shape and broadcast down the 5000 rows of a block, read at `(r, c)` is the row's
    entry `c`. -/
theorem bias_apply (b : Vec Ideal S1x128 .f32) (h1 : S1x128.ShapeCasts S1x128) (h2 : S1x128.Broadcasts S5000x128)
    (r : Fin 5000) (c : Fin 128) :
    broadcastTo S5000x128 (shapeCast S1x128 b h1) h2 (ix2 r c) = b (ix2 0 c) := by
  rw [shapeCast_self]
  refine broadcastTo_apply b h2 (ix2 r c) (ix2 0 c) fun a => ?_
  match a with
  | ⟨0, _⟩ => show (0 : Nat) = if (1 : Nat) = 1 then 0 else _; rw [if_pos rfl]
  | ⟨1, _⟩ => show c.val = if (128 : Nat) = 1 then 0 else _; rw [if_neg (by decide)]; rfl

/-- One affine layer of the body at `(r, c)`: the product of a block of rows with a weight matrix into the zero
    accumulator, plus the broadcast bias row, is `∑ q, h (r, q) * w (q, c) + b c`. -/
theorem layer_apply (h : FVec Ideal S5000x128 .bf16) (w : FVec Ideal S128x128 .bf16) (b : Vec Ideal S1x128 .f32)
    (h1 : S1x128.ShapeCasts S1x128) (h2 : S1x128.Broadcasts S5000x128) (r : Fin 5000) (c : Fin 128) :
    addf (matmul dot_S5000x128_S128x128_S5000x128_1_0_0_1_n_n none h w (constant S5000x128 .f32 0x00000000#32))
        (broadcastTo S5000x128 (shapeCast S1x128 b h1) h2) (ix2 r c)
      = (∑ q : Fin 128, h (ix2 r q) * w (ix2 q c)) + b (ix2 0 c) := by
  show FloatOps.matmul _ none h w _ (ix2 r c) + broadcastTo S5000x128 (shapeCast S1x128 b h1) h2 (ix2 r c) = _
  rw [bias_apply b h1 h2 r c]
  exact congrArg (· + b (ix2 0 c)) (Cert.PlainDot.matmul_zero_apply 5000 128 128 none h w (ix2 r c))

/-- THE BODY'S STORED VALUE at `(r, c)`: the output entry `c` of the node in row `r` of the block. -/
theorem pay_apply (x0 x1 : Vec Ideal S5000x128 .f32) (w1 : Vec Ideal S128x128 .f32) (b1 : Vec Ideal S1x128 .f32)
    (w2 : Vec Ideal S128x128 .f32) (b2 : Vec Ideal S1x128 .f32) (r : Fin 5000) (c : Fin 128) :
    k0_pay1 (F := Ideal) x0 x1 w1 b1 w2 b2 (ix2 r c)
      = outRow (fun q => x0 (ix2 r q)) (fun q => x1 (ix2 r q)) w1 (fun k => b1 (ix2 0 k)) w2 (fun k => b2 (ix2 0 k)) c := by
  unfold k0_pay1
  rw [layer_apply]
  unfold outRow
  refine congrArg (· + b2 (ix2 0 c)) (Finset.sum_congr rfl fun k _ => congrArg (· * w2 (ix2 k c)) ?_)
  show max (addf (F := Ideal) _ _ (ix2 r k)) _ = _
  rw [layer_apply, shapeCast_self]
  rfl

/-- The body's stored value is the update of its 5000 loaded nodes. -/
theorem pay_eq (x0 x1 : Vec Ideal S5000x128 .f32) (w1 : Vec Ideal S128x128 .f32) (b1 : Vec Ideal S1x128 .f32)
    (w2 : Vec Ideal S128x128 .f32) (b2 : Vec Ideal S1x128 .f32) :
    k0_pay1 (F := Ideal) x0 x1 w1 b1 w2 b2
      = mlp 5000 x0 x1 w1 (fun k => b1 (ix2 0 k)) w2 (fun k => b2 (ix2 0 k)) := by
  funext j
  obtain ⟨r, c, rfl⟩ : ∃ (r : Fin 5000) (c : Fin 128), j = ix2 r c := ⟨j 0, j 1, eq_ix2 j⟩
  exact pay_apply x0 x1 w1 b1 w2 b2 r c

end Cert.GinMlp.Body

end
-- ==== Proof.Blocks.lean ====
/-
  From blocks to the array: what the kernel's result array holds after the run, on the extended reals.

  Grid point `t` loads rows `5000 t … 5000 t + 4999` of the feature array and of the aggregate, the whole weight
  matrices and the whole bias rows, and writes back the update of those 5000 nodes as rows `5000 t … 5000 t + 4999`
  of the result. An entry of the update depends on one row of the features and of the aggregate, so what point `t`
  writes is block `t` of the update of all 50000 nodes; the ten blocks cover the result array.
-/
import proofs.«126447_j34316788695392_2_alg».proof.Proof.Gen.KernelIdeal.Value
import proofs.«126447_j34316788695392_2_alg».proof.Proof.Spec
import proofs.«126447_j34316788695392_2_alg».proof.Proof.KernelPayload
import Idealize.ShloMosaic.Lib.Pipeline.Value
import Idealize.ShloMosaic.Lib.Tactic

noncomputable section

namespace Cert.GinMlp.Blocks

open Idealize.ShloMosaic Idealize.ShloMosaic.TcCoe Idealize.SL.Sem Idealize.ShloMosaic.ValueIdx
open Idealize.ShloMosaic.Pipeline (Dat)
open Cert.KernelIdeal Cert.KernelIdeal.Gen

theorem hz : (![0, 0] : Fin 2 → Nat) = fun _ => 0 := funext fun a => by fin_cases a <;> rfl

/-- The printed index maps, decided over the ten grid points: the feature, aggregate and result windows are at
    row block `t`, the weight and bias windows at their only block. -/
theorem idx_facts : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The update of all 50000 nodes, from the six arrays the windows stage (the bias rows as arrays of one row). -/
def whole (X A : Mat 50000 128) (W1 : Mat 128 128) (B1 : Mat 1 128) (W2 : Mat 128 128) (B2 : Mat 1 128) : Mat 50000 128 :=
  mlp 50000 X A W1 (fun k => B1 (ix2 0 k)) W2 (fun k => B2 (ix2 0 k))

/-- WHAT THE BODY LEAVES at point `t`, from the windows' blocks of ANY six arrays, is block `t` of their update. -/
theorem block_eq (X A : Mat 50000 128) (W1 : Mat 128 128) (B1 : Mat 1 128) (W2 : Mat 128 128) (B2 : Mat 1 128)
    (t : Fin cfg0.N) :
    (cfg0.win 6).cut (grid0.coords t)
        (out0_6 (F := Ideal) (((cfg0.win 0).blk t).view.read (Elt Ideal) X) (((cfg0.win 1).blk t).view.read (Elt Ideal) A)
          (((cfg0.win 2).blk t).view.read (Elt Ideal) W1) (((cfg0.win 3).blk t).view.read (Elt Ideal) B1)
          (((cfg0.win 4).blk t).view.read (Elt Ideal) W2) (((cfg0.win 5).blk t).view.read (Elt Ideal) B2))
      = ((cfg0.win 6).blk t).view.read (Elt Ideal) (whole X A W1 B1 W2 B2) := by
  unfold out0_6
  rw [View.canon_unit_zero hz]
  simp only [View.ld_unit_zero (S := S5000x128) hz, View.ld_unit_zero (S := S128x128) hz, View.ld_unit_zero (S := S1x128) hz]
  rw [Cert.GinMlp.Body.pay_eq]
  obtain ⟨e00, e01, e10, e11, e20, e21, e30, e31, e40, e41, e50, e51, e60, e61⟩ := idx_facts t
  funext j
  show mlp 5000 _ _ _ _ _ _ _
    = mlp 50000 X A W1 (fun k => B1 (ix2 0 k)) W2 (fun k => B2 (ix2 0 k)) (((cfg0.win 6).blk t).view.emb j)
  refine mlp_congr _ _ _ _ _ _ _ _ _ _ _ _ _ _ (fun q => ?_) (fun q => ?_) ?_ ?_ ?_ ?_ ?_
  · show X (((cfg0.win 0).blk t).view.emb (ix2 (j 0) q)) = X (ix2 ((((cfg0.win 6).blk t).view.emb j) 0) q)
    refine congrArg X (funext fun a => Fin.ext ?_)
    match a with
    | ⟨0, _⟩ => show win0_0.index t (0 : Fin 2) * 5000 + 1 * (j 0).val = win0_6.index t (0 : Fin 2) * 5000 + 1 * (j 0).val; rw [e00, e60]
    | ⟨1, _⟩ => show win0_0.index t (1 : Fin 2) * 128 + 1 * q.val = q.val; rw [e01]; omega
  · show A (((cfg0.win 1).blk t).view.emb (ix2 (j 0) q)) = A (ix2 ((((cfg0.win 6).blk t).view.emb j) 0) q)
    refine congrArg A (funext fun a => Fin.ext ?_)
    match a with
    | ⟨0, _⟩ => show win0_1.index t (0 : Fin 2) * 5000 + 1 * (j 0).val = win0_6.index t (0 : Fin 2) * 5000 + 1 * (j 0).val; rw [e10, e60]
    | ⟨1, _⟩ => show win0_1.index t (1 : Fin 2) * 128 + 1 * q.val = q.val; rw [e11]; omega
  · funext y
    show W1 (((cfg0.win 2).blk t).view.emb y) = W1 y
    refine congrArg W1 (funext fun a => Fin.ext ?_)
    match a with
    | ⟨0, _⟩ => show win0_2.index t (0 : Fin 2) * 128 + 1 * (y 0).val = (y 0).val; rw [e20]; omega
    | ⟨1, _⟩ => show win0_2.index t (1 : Fin 2) * 128 + 1 * (y 1).val = (y 1).val; rw [e21]; omega
  · funext k
    show B1 (((cfg0.win 3).blk t).view.emb (ix2 0 k)) = B1 (ix2 0 k)
    refine congrArg B1 (funext fun a => Fin.ext ?_)
    match a with
    | ⟨0, _⟩ => show win0_3.index t (0 : Fin 2) * 1 + 1 * 0 = 0; rw [e30]
    | ⟨1, _⟩ => show win0_3.index t (1 : Fin 2) * 128 + 1 * k.val = k.val; rw [e31]; omega
  · funext y
    show W2 (((cfg0.win 4).blk t).view.emb y) = W2 y
    refine congrArg W2 (funext fun a => Fin.ext ?_)
    match a with
    | ⟨0, _⟩ => show win0_4.index t (0 : Fin 2) * 128 + 1 * (y 0).val = (y 0).val; rw [e40]; omega
    | ⟨1, _⟩ => show win0_4.index t (1 : Fin 2) * 128 + 1 * (y 1).val = (y 1).val; rw [e41]; omega
  · funext k
    show B2 (((cfg0.win 5).blk t).view.emb (ix2 0 k)) = B2 (ix2 0 k)
    refine congrArg B2 (funext fun a => Fin.ext ?_)
    match a with
    | ⟨0, _⟩ => show win0_5.index t (0 : Fin 2) * 1 + 1 * 0 = 0; rw [e50]
    | ⟨1, _⟩ => show win0_5.index t (1 : Fin 2) * 128 + 1 * k.val = k.val; rw [e51]; omega
  · apply Fin.ext
    show (j 1).val = win0_6.index t (1 : Fin 2) * 128 + 1 * (j 1).val
    rw [e61]; omega

end Cert.GinMlp.Blocks

end
-- ==== Proof.HostPrefix.lean ====
/-
  What the kernel's region finds in the arrays its host prefix wrote, on the extended reals.

  The aggregated-neighbour array (the scatter-add over the destination indices of the rows gathered at the wrapped
  source indices) is, operation for operation, the reference's scatter-add stage of the same feature and edge
  arrays; the two bias rows are the bias vectors given a leading axis of extent one.
-/
import proofs.«126447_j34316788695392_2_alg».proof.Proof.Gen.KernelIdeal.Frame
import proofs.«126447_j34316788695392_2_alg».proof.Proof.Gen.ReferenceIdeal.Read
import Idealize.ShloMosaic.Lib.StableHlo.Run
import Idealize.ShloMosaic.Lib.Pipeline.Value
import Idealize.ShloMosaic.Lib.ValueIdx

noncomputable section

namespace Cert.GinMlp.Prefix

open Idealize.ShloMosaic Idealize.ShloMosaic.TcCoe Idealize.SL.Sem Idealize.ShloMosaic.StableHlo
open Idealize.ShloMosaic.ValueIdx
open Cert.KernelIdeal Cert.KernelIdeal.Gen

variable (m : (ℓ : Loc nD τ sig) → Buf (Elt Ideal) ℓ)

set_option maxHeartbeats 2000000 in
/-- The aggregate the region finds is the reference's scatter-add stage of the launch contents of the feature and
    edge arrays. -/
theorem agg_eq (c : Dev nD) :
    @Eq (FVec Ideal S50000x128 .f32) (V m c main_v13)
      (Cert.ReferenceIdeal.Read.val_main_v13 (F := Ideal) (m ((c : Thread nD τ).loc main_arg0))
        (m ((c : Thread nD τ).loc main_arg1))) := by
  dsimp only [V, hostOps0]
  after_results_simp
  rfl

set_option maxHeartbeats 2000000 in
/-- The first bias row the region finds is the first bias vector with a leading unit axis. -/
theorem b1_arr (c : Dev nD) :
    @Eq (FVec Ideal S1x128 .f32) (V m c main_v14)
      (shapeCast S1x128 (m ((c : Thread nD τ).loc main_arg3) : FVec Ideal S128 .f32) shapeCasts_S128_S1x128) := by
  dsimp only [V, hostOps0]
  after_results_simp
  rfl

set_option maxHeartbeats 2000000 in
/-- The second bias row the region finds is the second bias vector with a leading unit axis. -/
theorem b2_arr (c : Dev nD) :
    @Eq (FVec Ideal S1x128 .f32) (V m c main_v15)
      (shapeCast S1x128 (m ((c : Thread nD τ).loc main_arg5) : FVec Ideal S128 .f32) shapeCasts_S128_S1x128) := by
  dsimp only [V, hostOps0]
  after_results_simp
  rfl

/-- A vector given a leading unit axis, read at `(0, k)`, is its entry `k`. -/
theorem row_apply (v : FVec Ideal S128 .f32) (h : S128.ShapeCasts S1x128) (k : Fin 128) :
    shapeCast S1x128 v h (ix2 0 k) = v (ix1 k) :=
  (shapeCast_addUnit_apply ![128] v h (ix2 0 k)).trans
    (congrArg v (funext fun a => match a with | ⟨0, _⟩ => rfl))

/-- Entry `k` of the first bias row the region finds is entry `k` of the first bias vector. -/
theorem b1_apply (c : Dev nD) (k : Fin 128) :
    (V m c main_v14 : FVec Ideal S1x128 .f32) (ix2 0 k) = (m ((c : Thread nD τ).loc main_arg3) : FVec Ideal S128 .f32) (ix1 k) :=
  (congrFun (b1_arr m c) (ix2 0 k)).trans (row_apply _ _ k)

/-- Entry `k` of the second bias row the region finds is entry `k` of the second bias vector. -/
theorem b2_apply (c : Dev nD) (k : Fin 128) :
    (V m c main_v15 : FVec Ideal S1x128 .f32) (ix2 0 k) = (m ((c : Thread nD τ).loc main_arg5) : FVec Ideal S128 .f32) (ix1 k) :=
  (congrFun (b2_arr m c) (ix2 0 k)).trans (row_apply _ _ k)

end Cert.GinMlp.Prefix

end
-- ==== Proof.KernelRun.lean ====
/-
  The kernel's run, read: its result array ends holding the update of all 50000 nodes, of the feature array as
  launched, the aggregate its host prefix computes (the reference's scatter-add stage), the weights and the biases.

  Each grid point writes block `t` of that update (the body's value over the windows' blocks); the block of the
  point `r / 5000` covers row `r`; the arrays the windows stage are the launch contents, the aggregate stage and
  the bias vectors as rows.
-/
import proofs.«126447_j34316788695392_2_alg».proof.Proof.Gen.KernelIdeal.Value
import proofs.«126447_j34316788695392_2_alg».proof.Proof.Gen.ReferenceIdeal.Read
import proofs.«126447_j34316788695392_2_alg».proof.Proof.Blocks
import proofs.«126447_j34316788695392_2_alg».proof.Proof.HostPrefix
import Idealize.ShloMosaic.Lib.Pipeline.Value

noncomputable section

namespace Cert.GinMlp.KernelRun

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- The update of all nodes over the arrays the region finds, window by window. -/
def G (c : Dev nD) : Mat 50000 128 :=
  Blocks.whole (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5))

/-- WHAT POINT `t` WRITES BACK is block `t` of that update. -/
theorem flushed_eq (c : Dev nD) (t : Fin cfg0.N) :
    (dats m 0 c).flushed 6 t = ((cfg0.win 6).blk t).view.read (Elt Ideal) (G m c) := by
  rw [Cert.KernelIdeal.Value.flushed6]
  unfold iblk G
  exact Blocks.block_eq _ _ _ _ _ _ t

/-- An index of the result array is in point `t`'s block iff each coordinate is in the block's range on its axis. -/
theorem mem_blk (t : Fin cfg0.N) (i : S50000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v16).slice (win0_6.rect t)).set ↔ _
  rw [View.set_slice_whole, Rect.mem_set_unit]
  exact Iff.rfl

/-- THE COVER: row `r` of the result is in the block of point `r / 5000`. -/
theorem cover (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  obtain ⟨t, ht⟩ : ∃ t : Fin cfg0.N, t.val = (i 0).val / 5000 :=
    ⟨⟨(i 0).val / 5000, Nat.lt_of_lt_of_eq (by omega : (i 0).val / 5000 < 10) N_0.symm⟩, rfl⟩
  obtain ⟨-, -, -, -, -, -, -, -, -, -, -, -, e60, e61⟩ := Blocks.idx_facts t
  refine ⟨t, flush0_6 t, ?_⟩
  rw [mem_blk]
  intro a
  match a with
  | ⟨0, _⟩ =>
    show win0_6.index t (0 : Fin 2) * 5000 ≤ (i 0).val ∧ (i 0).val < win0_6.index t (0 : Fin 2) * 5000 + 5000
    rw [e60, ht]; omega
  | ⟨1, _⟩ =>
    show win0_6.index t (1 : Fin 2) * 128 ≤ (i 1).val ∧ (i 1).val < win0_6.index t (1 : Fin 2) * 128 + 128
    rw [e61]; omega

/-- So the result array ends holding the update over the arrays the region finds. -/
theorem final (c : Dev nD) : (dats m 0 c).arrAt 6 cfg0.N = G m c :=
  (dats m 0 c).arrAt_eq_of_cover 6 (G m c) (fun t _ => flushed_eq m c t) cover

/-- The result in the launch contents: the update of the features, the scatter-add stage of the features and
    edges, the weights, and the bias vectors. -/
abbrev result (c : Dev nD) : Mat 50000 128 :=
  mlp 50000 (m ((c : Thread nD τ).loc main_arg0))
    (Cert.ReferenceIdeal.Read.val_main_v13 (F := Ideal) (m ((c : Thread nD τ).loc main_arg0)) (m ((c : Thread nD τ).loc main_arg1)))
    (m ((c : Thread nD τ).loc main_arg2)) (fun k => (m ((c : Thread nD τ).loc main_arg3) : FVec Ideal S128 .f32) (ix1 k))
    (m ((c : Thread nD τ).loc main_arg4)) (fun k => (m ((c : Thread nD τ).loc main_arg5) : FVec Ideal S128 .f32) (ix1 k))

/-- The arrays the region finds, read in the launch contents. -/
theorem G_eq (c : Dev nD) : G m c = result m c := by
  have h0 : @Eq (Mat 50000 128) (V m c (Pipeline.arrRef spec0 0)) (m ((c : Thread nD τ).loc main_arg0)) := V_main_arg0 m c
  have h1 : @Eq (Mat 50000 128) (V m c (Pipeline.arrRef spec0 1))
      (Cert.ReferenceIdeal.Read.val_main_v13 (F := Ideal) (m ((c : Thread nD τ).loc main_arg0)) (m ((c : Thread nD τ).loc main_arg1))) :=
    Prefix.agg_eq m c
  have h2 : @Eq (Mat 128 128) (V m c (Pipeline.arrRef spec0 2)) (m ((c : Thread nD τ).loc main_arg2)) := V_main_arg2 m c
  have h3 : (fun k : Fin 128 => (V m c (Pipeline.arrRef spec0 3) : Mat 1 128) (ix2 0 k))
      = fun k : Fin 128 => (m ((c : Thread nD τ).loc main_arg3) : FVec Ideal S128 .f32) (ix1 k) :=
    funext (Prefix.b1_apply m c)
  have h4 : @Eq (Mat 128 128) (V m c (Pipeline.arrRef spec0 4)) (m ((c : Thread nD τ).loc main_arg4)) := V_main_arg4 m c
  have h5 : (fun k : Fin 128 => (V m c (Pipeline.arrRef spec0 5) : Mat 1 128) (ix2 0 k))
      = fun k : Fin 128 => (m ((c : Thread nD τ).loc main_arg5) : FVec Ideal S128 .f32) (ix1 k) :=
    funext (Prefix.b2_apply m c)
  unfold G Blocks.whole
  exact mlp_args h0 h1 h2 h3 h4 h5

/-- THE RUN, read: the result array at the update in the launch contents, the arguments unchanged. -/
theorem run : θ_run defs (onTc (τ := τ) (main (F := Ideal))) ⟨m, fun _ => 0, ρ⟩ fun r => ∀ c : Dev nD,
      r.2.mem ((c : Thread nD τ).loc main_v16) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans ((final m c).trans (G_eq m c)), (h c).2⟩)
    (Cert.KernelIdeal.Value.run_blocks m ρ)

end Cert.GinMlp.KernelRun

end
-- ==== Proof.lean ====
/- The proof of `Cert.Claim`: a graph-isomorphism layer's node update followed by a two-layer perceptron, tiled over
   blocks of 5000 node rows, against the same computation written over the whole arrays.

   Both programs first aggregate neighbour features by the same host operations (the rows gathered at the wrapped
   source indices, scatter-added at the destination indices into zeros); this stage is one term on both sides.
   On the extended reals, format changes being the identity, the kernel's body computes for each of its 5000 rows
   `out c = ∑ k, max (∑ q, (1 * x q + agg q) * W1 (q, k) + b1 k) 0 * W2 (k, c) + b2 c` (Proof/KernelPayload.lean: the
   two matrix-unit products into zero accumulators are these sums), and the reference computes the same entry for
   each of the 50000 rows (Proof/RefValue.lean: the host's two `dot_general`s are the same sums). An entry depends
   on one row of the features and of the aggregate only (Proof/Spec.lean), so what grid point `t` writes back is
   block `t` of the update of all rows, and the ten blocks cover the result (Proof/Blocks.lean, Proof/KernelRun.lean).
   The sums are spelt the same way on both sides, so no law of the extended reals beyond equality of the summands is
   used and the finiteness of the inputs is never opened. The ideal pass rewrote nothing, so `preserves` is `True`.
   The three frames are the generated frame runs. -/
import proofs.«126447_j34316788695392_2_alg».proof.Defs
import proofs.«126447_j34316788695392_2_alg».proof.Proof.Gen.Kernel
import proofs.«126447_j34316788695392_2_alg».proof.Proof.Gen.Kernel.Skeleton
import proofs.«126447_j34316788695392_2_alg».proof.Proof.Gen.Kernel.Launch
import proofs.«126447_j34316788695392_2_alg».proof.Proof.Gen.Kernel.Points
import proofs.«126447_j34316788695392_2_alg».proof.Proof.Gen.Kernel.Frame
import proofs.«126447_j34316788695392_2_alg».proof.Proof.Gen.KernelIdeal
import proofs.«126447_j34316788695392_2_alg».proof.Proof.Gen.KernelIdeal.Skeleton
import proofs.«126447_j34316788695392_2_alg».proof.Proof.Gen.KernelIdeal.Launch
import proofs.«126447_j34316788695392_2_alg».proof.Proof.Gen.KernelIdeal.Points
import proofs.«126447_j34316788695392_2_alg».proof.Proof.Gen.KernelIdeal.Frame
import proofs.«126447_j34316788695392_2_alg».proof.Proof.Gen.ReferenceIdeal
import proofs.«126447_j34316788695392_2_alg».proof.Proof.Gen.Pre_finite_inputs
import proofs.«126447_j34316788695392_2_alg».proof.Proof.Gen.KernelIdeal.Value
import proofs.«126447_j34316788695392_2_alg».proof.Proof.Gen.ReferenceIdeal.Run
import proofs.«126447_j34316788695392_2_alg».proof.Proof.Gen.ReferenceIdeal.Read
import proofs.«126447_j34316788695392_2_alg».proof.Proof.RefValue
import proofs.«126447_j34316788695392_2_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel runs and leaves its arguments as launched: the generated frame. -/
theorem frame_k : Cert.frame_Kernel :=
  fun m ρ _ => Cert.Kernel.Gen.frame m ρ

/-- So does the idealized kernel. -/
theorem frame_ki : Cert.frame_KernelIdeal :=
  fun m ρ _ => Cert.KernelIdeal.Gen.frame m ρ

/-- The reference's frame is its generated run with the result dropped. -/
theorem frame_ri : Cert.frame_ReferenceIdeal :=
  fun m ρ _ => (θ_run Cert.ReferenceIdeal.defs _ _).mono (fun _ h c => (h c).2)
    (Cert.ReferenceIdeal.Value.run (F := Ideal) m ρ)

/-- From memories agreeing on the arguments both programs end with the update of all 50000 nodes: the kernel's
    result array block by block, the reference's as its last stage read at an index; the aggregate is the same
    stage of the same arrays on both sides. -/
theorem algebraic : Cert.algebraic_KernelIdeal_ReferenceIdeal := by
  intro m ρ m' ρ' _ hagree
  refine ⟨fun c => Cert.GinMlp.KernelRun.result m c, Cert.GinMlp.KernelRun.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v25_eq (F := Ideal) _ _ _ _ _ _).trans
    ((Cert.GinMlp.Ref.ref_eq _ _ _ _ _ _).trans ?_)
  obtain ⟨h0, h1, h2, h3, h4, h5⟩ := hagree c
  rw [h0, h1, h2, h3, h4, h5]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
